-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v66)) (v1 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_v83) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v94) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_arg6 : FVec F S128x64 .f32) (main_arg7 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x64 .f32) (main_arg5 : FVec F S64 .f32) (main_arg6 : FVec F S128x64 .f32) (main_arg7 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩

abbrev nBuf : Space → Nat
  | .hbm => 114
  | .vmem => 15
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000, .f32⟩
  | .hbm, ⟨50, _⟩ => ⟨S850000, .f32⟩
  | .hbm, ⟨51, _⟩ => ⟨S50000x128, .f32⟩
  | .hbm, ⟨52, _⟩ => ⟨S_, .i32⟩
  | .hbm, ⟨53, _⟩ => ⟨S850000, .i32⟩
  | .hbm, ⟨54, _⟩ => ⟨S850000, .i1⟩
  | .hbm, ⟨55, _⟩ => ⟨S_, .i32⟩
  | .hbm, ⟨56, _⟩ => ⟨S850000, .i32⟩
  | .hbm, ⟨57, _⟩ => ⟨S850000, .i32⟩
  | .hbm, ⟨58, _⟩ => ⟨S850000, .i32⟩
  | .hbm, ⟨59, _⟩ => ⟨S850000x1, .i32⟩
  | .hbm, ⟨60, _⟩ => ⟨S850000x128, .f32⟩
  | .hbm, ⟨61, _⟩ => ⟨S850000x1, .f32⟩
  | .hbm, ⟨62, _⟩ => ⟨S850000x128, .f32⟩
  | .hbm, ⟨63, _⟩ => ⟨S850000x128, .f32⟩
  | .hbm, ⟨64, _⟩ => ⟨S_, .f32⟩
  | .hbm, ⟨65, _⟩ => ⟨S50000x128, .f32⟩
  | .hbm, ⟨66, _⟩ => ⟨S850000x1, .i32⟩
  | .hbm, ⟨67, _⟩ => ⟨S50000x128, .f32⟩
  | .hbm, ⟨68, _⟩ => ⟨S1x128, .f32⟩
  | .hbm, ⟨69, _⟩ => ⟨S50000x128, .f32⟩
  | .hbm, ⟨70, _⟩ => ⟨S50000x128, .f32⟩
  | .hbm, ⟨71, _⟩ => ⟨S_, .f32⟩
  | .hbm, ⟨72, _⟩ => ⟨S50000x128, .f32⟩
  | .hbm, ⟨73, _⟩ => ⟨S50000x128, .f32⟩
  | .hbm, ⟨74, _⟩ => ⟨S50000x64, .f32⟩
  | .hbm, ⟨75, _⟩ => ⟨S_, .i32⟩
  | .hbm, ⟨76, _⟩ => ⟨S850000, .i32⟩
  | .hbm, ⟨77, _⟩ => ⟨S850000, .i1⟩
  | .hbm, ⟨78, _⟩ => ⟨S_, .i32⟩
  | .hbm, ⟨79, _⟩ => ⟨S850000, .i32⟩
  | .hbm, ⟨80, _⟩ => ⟨S850000, .i32⟩
  | .hbm, ⟨81, _⟩ => ⟨S850000, .i32⟩
  | .hbm, ⟨82, _⟩ => ⟨S850000x1, .i32⟩
  | .hbm, ⟨83, _⟩ => ⟨S850000x64, .f32⟩
  | .hbm, ⟨84, _⟩ => ⟨S850000x1, .f32⟩
  | .hbm, ⟨85, _⟩ => ⟨S850000x64, .f32⟩
  | .hbm, ⟨86, _⟩ => ⟨S850000x64, .f32⟩
  | .hbm, ⟨87, _⟩ => ⟨S_, .f32⟩
  | .hbm, ⟨88, _⟩ => ⟨S50000x64, .f32⟩
  | .hbm, ⟨89, _⟩ => ⟨S850000x1, .i32⟩
  | .hbm, ⟨90, _⟩ => ⟨S50000x64, .f32⟩
  | .hbm, ⟨91, _⟩ => ⟨S1x64, .f32⟩
  | .hbm, ⟨92, _⟩ => ⟨S50000x64, .f32⟩
  | .hbm, ⟨93, _⟩ => ⟨S50000x64, .f32⟩
  | .hbm, ⟨94, _⟩ => ⟨S50000x64, .f32⟩
  | .hbm, ⟨95, _⟩ => ⟨S_, .i32⟩
  | .hbm, ⟨96, _⟩ => ⟨S850000, .i32⟩
  | .hbm, ⟨97, _⟩ => ⟨S850000, .i1⟩
  | .hbm, ⟨98, _⟩ => ⟨S_, .i32⟩
  | .hbm, ⟨99, _⟩ => ⟨S850000, .i32⟩
  | .hbm, ⟨100, _⟩ => ⟨S850000, .i32⟩
  | .hbm, ⟨101, _⟩ => ⟨S850000, .i32⟩
  | .hbm, ⟨102, _⟩ => ⟨S850000x1, .i32⟩
  | .hbm, ⟨103, _⟩ => ⟨S850000x64, .f32⟩
  | .hbm, ⟨104, _⟩ => ⟨S850000x1, .f32⟩
  | .hbm, ⟨105, _⟩ => ⟨S850000x64, .f32⟩
  | .hbm, ⟨106, _⟩ => ⟨S850000x64, .f32⟩
  | .hbm, ⟨107, _⟩ => ⟨S_, .f32⟩
  | .hbm, ⟨108, _⟩ => ⟨S50000x64, .f32⟩
  | .hbm, ⟨109, _⟩ => ⟨S850000x1, .i32⟩
  | .hbm, ⟨110, _⟩ => ⟨S50000x64, .f32⟩
  | .hbm, ⟨111, _⟩ => ⟨S1x64, .f32⟩
  | .hbm, ⟨112, _⟩ => ⟨S50000x64, .f32⟩
  | .hbm, ⟨113, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x64, .f32⟩
  | .local _ .vmem, ⟨8, _⟩ => ⟨S5000x64, .f32⟩
  | .local _ .vmem, ⟨9, _⟩ => ⟨S5000x64, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_c_13 : Ref sig .tc := ⟨.hbm, 95, rfl⟩
abbrev main_v68 : Ref sig .tc := ⟨.hbm, 96, rfl⟩
abbrev main_v69 : Ref sig .tc := ⟨.hbm, 97, rfl⟩
abbrev main_c_14 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_15 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v49) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v67) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 135
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x64, .f32⟩
  | 5 => ⟨S64, .f32⟩
  | 6 => ⟨S128x64, .f32⟩
  | 7 => ⟨S64, .f32⟩
  | 8 => ⟨S50000, .i32⟩
  | 9 => ⟨S1x800000, .i32⟩
  | 10 => ⟨S800000, .i32⟩
  | 11 => ⟨S850000, .i32⟩
  | 12 => ⟨S1x800000, .i32⟩
  | 13 => ⟨S800000, .i32⟩
  | 14 => ⟨S850000, .i32⟩
  | 15 => ⟨S_, .f32⟩
  | 16 => ⟨S850000, .f32⟩
  | 17 => ⟨S_, .f32⟩
  | 18 => ⟨S50000, .f32⟩
  | 19 => ⟨S850000x1, .i32⟩
  | 20 => ⟨S50000, .f32⟩
  | 21 => ⟨S_, .f32⟩
  | 22 => ⟨S50000, .f32⟩
  | 23 => ⟨S50000, .i1⟩
  | 24 => ⟨S_, .f32⟩
  | 25 => ⟨S50000, .f32⟩
  | 26 => ⟨S50000, .f32⟩
  | 27 => ⟨S50000, .f32⟩
  | 28 => ⟨S_, .f32⟩
  | 29 => ⟨S50000, .f32⟩
  | 30 => ⟨S50000, .i1⟩
  | 31 => ⟨S_, .f32⟩
  | 32 => ⟨S_, .f32⟩
  | 33 => ⟨S50000, .f32⟩
  | 34 => ⟨S50000, .f32⟩
  | 35 => ⟨S50000, .f32⟩
  | 36 => ⟨S50000, .f32⟩
  | 37 => ⟨S50000, .f32⟩
  | 38 => ⟨S_, .f32⟩
  | 39 => ⟨S_, .f32⟩
  | 40 => ⟨S50000, .f32⟩
  | 41 => ⟨S50000, .f32⟩
  | 42 => ⟨S_, .f32⟩
  | 43 => ⟨S50000, .f32⟩
  | 44 => ⟨S50000, .i1⟩
  | 45 => ⟨S50000, .f32⟩
  | 46 => ⟨S_, .f32⟩
  | 47 => ⟨S50000, .f32⟩
  | 48 => ⟨S50000, .f32⟩
  | 49 => ⟨S_, .f32⟩
  | 50 => ⟨S_, .f32⟩
  | 51 => ⟨S50000, .f32⟩
  | 52 => ⟨S50000, .f32⟩
  | 53 => ⟨S_, .i32⟩
  | 54 => ⟨S850000, .i32⟩
  | 55 => ⟨S850000, .i1⟩
  | 56 => ⟨S_, .i32⟩
  | 57 => ⟨S850000, .i32⟩
  | 58 => ⟨S850000, .i32⟩
  | 59 => ⟨S850000, .i32⟩
  | 60 => ⟨S850000x1, .i32⟩
  | 61 => ⟨S850000, .f32⟩
  | 62 => ⟨S_, .i32⟩
  | 63 => ⟨S850000, .i32⟩
  | 64 => ⟨S850000, .i1⟩
  | 65 => ⟨S_, .i32⟩
  | 66 => ⟨S850000, .i32⟩
  | 67 => ⟨S850000, .i32⟩
  | 68 => ⟨S850000, .i32⟩
  | 69 => ⟨S850000x1, .i32⟩
  | 70 => ⟨S850000, .f32⟩
  | 71 => ⟨S850000, .f32⟩
  | 72 => ⟨S50000x128, .f32⟩
  | 73 => ⟨S_, .i32⟩
  | 74 => ⟨S850000, .i32⟩
  | 75 => ⟨S850000, .i1⟩
  | 76 => ⟨S_, .i32⟩
  | 77 => ⟨S850000, .i32⟩
  | 78 => ⟨S850000, .i32⟩
  | 79 => ⟨S850000, .i32⟩
  | 80 => ⟨S850000x1, .i32⟩
  | 81 => ⟨S850000x128, .f32⟩
  | 82 => ⟨S850000x1, .f32⟩
  | 83 => ⟨S850000x128, .f32⟩
  | 84 => ⟨S850000x128, .f32⟩
  | 85 => ⟨S_, .f32⟩
  | 86 => ⟨S50000x128, .f32⟩
  | 87 => ⟨S850000x1, .i32⟩
  | 88 => ⟨S50000x128, .f32⟩
  | 89 => ⟨S1x128, .f32⟩
  | 90 => ⟨S50000x128, .f32⟩
  | 91 => ⟨S50000x128, .f32⟩
  | 92 => ⟨S_, .f32⟩
  | 93 => ⟨S50000x128, .f32⟩
  | 94 => ⟨S50000x128, .f32⟩
  | 95 => ⟨S50000x64, .f32⟩
  | 96 => ⟨S_, .i32⟩
  | 97 => ⟨S850000, .i32⟩
  | 98 => ⟨S850000, .i1⟩
  | 99 => ⟨S_, .i32⟩
  | 100 => ⟨S850000, .i32⟩
  | 101 => ⟨S850000, .i32⟩
  | 102 => ⟨S850000, .i32⟩
  | 103 => ⟨S850000x1, .i32⟩
  | 104 => ⟨S850000x64, .f32⟩
  | 105 => ⟨S850000x1, .f32⟩
  | 106 => ⟨S850000x64, .f32⟩
  | 107 => ⟨S850000x64, .f32⟩
  | 108 => ⟨S_, .f32⟩
  | 109 => ⟨S50000x64, .f32⟩
  | 110 => ⟨S850000x1, .i32⟩
  | 111 => ⟨S50000x64, .f32⟩
  | 112 => ⟨S1x64, .f32⟩
  | 113 => ⟨S50000x64, .f32⟩
  | 114 => ⟨S50000x64, .f32⟩
  | 115 => ⟨S50000x64, .f32⟩
  | 116 => ⟨S_, .i32⟩
  | 117 => ⟨S850000, .i32⟩
  | 118 => ⟨S850000, .i1⟩
  | 119 => ⟨S_, .i32⟩
  | 120 => ⟨S850000, .i32⟩
  | 121 => ⟨S850000, .i32⟩
  | 122 => ⟨S850000, .i32⟩
  | 123 => ⟨S850000x1, .i32⟩
  | 124 => ⟨S850000x64, .f32⟩
  | 125 => ⟨S850000x1, .f32⟩
  | 126 => ⟨S850000x64, .f32⟩
  | 127 => ⟨S850000x64, .f32⟩
  | _ => ⟨S50000x128, .f32⟩

abbrev hbmTy0_1 (i : Nat) : BufTy := match i % 128 with
  | 0 => ⟨S_, .f32⟩
  | 1 => ⟨S50000x64, .f32⟩
  | 2 => ⟨S850000x1, .i32⟩
  | 3 => ⟨S50000x64, .f32⟩
  | 4 => ⟨S1x64, .f32⟩
  | 5 => ⟨S50000x64, .f32⟩
  | 6 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_cst_5 : Ref sig .tc := ⟨.hbm, 32, rfl⟩
abbrev main_call0_v0 : Ref sig .tc := ⟨.hbm, 33, rfl⟩
abbrev main_call0_v1 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_6 : Ref sig .tc := ⟨.hbm, 38, rfl⟩
abbrev main_call1_v0 : Ref sig .tc := ⟨.hbm, 39, rfl⟩
abbrev main_call1_v1 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_8 : Ref sig .tc := ⟨.hbm, 46, rfl⟩
abbrev main_v25 : Ref sig .tc := ⟨.hbm, 47, rfl⟩
abbrev main_v26 : Ref sig .tc := ⟨.hbm, 48, rfl⟩
abbrev main_cst_9 : Ref sig .tc := ⟨.hbm, 49, rfl⟩
abbrev main_call2_v0 : Ref sig .tc := ⟨.hbm, 50, rfl⟩
abbrev main_call2_v1 : Ref sig .tc := ⟨.hbm, 51, rfl⟩
abbrev main_v27 : Ref sig .tc := ⟨.hbm, 52, rfl⟩
abbrev main_c : Ref sig .tc := ⟨.hbm, 53, rfl⟩
abbrev main_v28 : Ref sig .tc := ⟨.hbm, 54, rfl⟩
abbrev main_v29 : Ref sig .tc := ⟨.hbm, 55, rfl⟩
abbrev main_c_10 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_c_11 : Ref sig .tc := ⟨.hbm, 62, rfl⟩
abbrev main_v35 : Ref sig .tc := ⟨.hbm, 63, rfl⟩
abbrev main_v36 : Ref sig .tc := ⟨.hbm, 64, rfl⟩
abbrev main_c_12 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_c_13 : Ref sig .tc := ⟨.hbm, 73, rfl⟩
abbrev main_v44 : Ref sig .tc := ⟨.hbm, 74, rfl⟩
abbrev main_v45 : Ref sig .tc := ⟨.hbm, 75, rfl⟩
abbrev main_c_14 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_15 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_call3_cst : Ref sig .tc := ⟨.hbm, 92, rfl⟩
abbrev main_call3_v0 : Ref sig .tc := ⟨.hbm, 93, rfl⟩
abbrev main_v60 : Ref sig .tc := ⟨.hbm, 94, rfl⟩
abbrev main_v61 : Ref sig .tc := ⟨.hbm, 95, rfl⟩
abbrev main_c_16 : Ref sig .tc := ⟨.hbm, 96, rfl⟩
abbrev main_v62 : Ref sig .tc := ⟨.hbm, 97, rfl⟩
abbrev main_v63 : Ref sig .tc := ⟨.hbm, 98, rfl⟩
abbrev main_c_17 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_cst_18 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_c_19 : Ref sig .tc := ⟨.hbm, 116, rfl⟩
abbrev main_v79 : Ref sig .tc := ⟨.hbm, 117, rfl⟩
abbrev main_v80 : Ref sig .tc := ⟨.hbm, 118, rfl⟩
abbrev main_c_20 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_cst_21 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KernelRun.lean ====
/-
  The kernel program's run, with every buffer named at the return.

  The generated frame certificate launches the program's ten segments (seven stretches of host operations, three
  kernel launches) and ends holding every unscoped buffer at the last boundary's contents `Gen.W10`; it then reads
  only the eight argument buffers. Here the same launch is read at EVERY unscoped buffer, which is what a claim about
  the two results needs: at the return buffer `b` holds `Gen.W10 m ρ c b`.
-/
import proofs.«149232_j77773267796720_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates, nothing faulting, and in
    every final state each core's every unscoped buffer holds the last boundary's contents. -/
theorem ends_at_W10 : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h => h)

end Cert.KernelIdeal.Run

end
-- ==== Proof.LibPlainDot.lean ====
/-
  The plain matrix product [M, K] × [K, N] → [M, N] (contract the left operand's second axis with the
  right operand's first) read at an entry, over the extended reals: entry (r, n) of the product is
  ∑ k, l (r, k) · r (k, n). Two operations compute it: a vector matrix product into an accumulator that
  is zero everywhere, and the host's dot_general. Both are that one finite sum, hence equal to each
  other; no order of summation and no rounding is left in either, and nothing here needs an entry
  to be finite.
-/
import Idealize.ShloMosaic.PureOps.Ideal.Laws
import Idealize.ShloMosaic.Lib.ValueIdx

noncomputable section

namespace PlainDot

open Idealize.ShloMosaic Idealize.ShloMosaic.ValueIdx

variable {M K N : Nat}

/-- The contraction runs over one axis, of extent `K`. -/
theorem contr_rank : (DotDims.plain M K N).contr.rank = 1 := rfl
theorem contr_size : (DotDims.plain M K N).contr.size ⟨0, by rw [contr_rank]; exact Nat.one_pos⟩ = K := rfl

/-- The left operand is read in the result's row … -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl
/-- … at the contraction position; -/
theorem lhs_col (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single rfl j q
/-- the right operand at the contraction position … -/
theorem rhs_row (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single rfl j q
/-- … in the result's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The sum over the contraction index, re-indexed by the one coordinate `k : Fin K`: the left operand at
    (row of `j`, `k`) times the right operand at (`k`, column of `j`). -/
theorem sum_contr (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = ∑ k : Fin K, l (ix2 (j 0) k) * r (ix2 k (j 1)) := by
  rw [← Equiv.sum_comp (contrEquiv1 (DotDims.plain M K N) K contr_rank contr_size).symm]
  refine Finset.sum_congr rfl fun k _ => ?_
  have hk := contrEquiv1_symm_val (DotDims.plain M K N) K contr_rank contr_size k
  have el : (DotDims.plain M K N).lhsIdx j ((contrEquiv1 (DotDims.plain M K N) K contr_rank contr_size).symm k) = ix2 (j 0) k :=
    funext fun a => Fin.ext (by
      match a with
      | ⟨0, _⟩ => exact lhs_row _ _
      | ⟨1, _⟩ => exact (lhs_col _ _).trans hk)
  have er : (DotDims.plain M K N).rhsIdx j ((contrEquiv1 (DotDims.plain M K N) K contr_rank contr_size).symm k) = ix2 k (j 1) :=
    funext fun a => Fin.ext (by
      match a with
      | ⟨0, _⟩ => exact (rhs_row _ _).trans hk
      | ⟨1, _⟩ => exact rhs_col _ _)
  exact congrArg₂ (· * ·) (congrArg l el) (congrArg r er)

/-- A vector matrix product into the accumulator that is zero everywhere, at an entry. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_contr l r j)

/-- The host's dot_general, at an entry. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, l (ix2 (j 0) k) * r (ix2 k (j 1)) :=
  (Ideal.dotGeneral_apply (DotDims.plain M K N) prec sched l r j).trans (sum_contr l r j)

end PlainDot

end
-- ==== Proof.PlainProduct.lean ====
/-
  The dense product that every layer of the network starts with. For a matrix `a` of shape [M, K] and a
  weight matrix `w` of shape [K, N], entry (r, n) of `prod a w` is ∑ k, a (r, k) · w (k, n), a finite sum
  over the extended reals. Both ways the two programs compute a layer's product are this function: the
  vector unit's matrix product accumulated into an all-zero block, and the host's dot_general contracting
  the left operand's columns with the right operand's rows. A sum over a finite index set in a commutative
  monoid has no order, so no fact about the entries (finiteness included) is needed.
-/
import proofs.«149232_j77773267796720_1_alg».proof.Proof.LibPlainDot

noncomputable section

namespace GraphConv

open Idealize.ShloMosaic Idealize.ShloMosaic.ValueIdx

variable {M K N : Nat}

/-- The product of an [M, K] matrix with a [K, N] matrix, entry by entry. -/
def prod (a : (⟨2, ![M, K]⟩ : Shape).Idx → EReal) (w : (⟨2, ![K, N]⟩ : Shape).Idx → EReal) :
    (⟨2, ![M, N]⟩ : Shape).Idx → EReal :=
  fun j => ∑ k : Fin K, a (ix2 (j 0) k) * w (ix2 k (j 1))

theorem prod_apply (a : (⟨2, ![M, K]⟩ : Shape).Idx → EReal) (w : (⟨2, ![K, N]⟩ : Shape).Idx → EReal)
    (j : (⟨2, ![M, N]⟩ : Shape).Idx) : prod a w j = ∑ k : Fin K, a (ix2 (j 0) k) * w (ix2 k (j 1)) := rfl

/-- A matrix product into a zero accumulator, over any dimension record that contracts columns with rows,
    is `prod`. -/
theorem matmul_zero_eq {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) :
    FloatOps.matmul d prec l r (constant ⟨2, ![M, N]⟩ .f32 0x00000000#32) = prod l r := by
  subst hd
  funext j
  exact PlainDot.matmul_zero_apply prec l r j

/-- The host's dot_general over such a record is `prod`, whatever its precision and schedule keys. -/
theorem dotGeneral_eq {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂) :
    FloatOps.dotGeneral d prec sched l r = prod l r := by
  subst hd
  funext j
  exact PlainDot.dotGeneral_apply prec sched l r j

end GraphConv

end
-- ==== Proof.Chain.lean ====
/-
  The message-passing part of a graph-convolution layer, which both programs run on the host in the same words.

  From the edge list (row 0: each edge's source node, row 1: its target node) the program appends the self
  loops 0, …, 49999 to both rows (`sources`, `targets`), counts each node's incoming edges by adding a one per
  edge at its target (`degree`), takes 1/√degree where the degree is positive and 0 elsewhere (`invSqrtDeg`),
  and gives each edge the weight invSqrtDeg(source) · invSqrtDeg(target) (`edgeWeight`). A layer then gathers
  the rows of a node-feature matrix at the edges' sources, scales each gathered row by its edge's weight, adds
  the rows up at the edges' targets and adds the bias row (`aggregate128`, `aggregate64`); the first layer ends
  with max(·, 0) (`relu`). A node index below zero is read as index + 50000 before a gather (`wrap`).

  None of these functions is ever opened here: what matters is only that the stretches of host operations
  between the kernel launches compute them, of whatever values the buffers held before the stretch. Each lemma
  below says that for one stretch and one buffer, at an arbitrary contents `W` of the buffers before it; the
  "unwritten" lemmas say which buffers a stretch leaves alone.
-/
import proofs.«149232_j77773267796720_1_alg».proof.Proof.Gen.KernelIdeal.Launch
import Idealize.ShloMosaic.Lib.StableHlo.Run
import Idealize.ShloMosaic.PureOps.Ideal
import proofs.«149232_j77773267796720_1_alg».proof.Proof.PlainProduct

noncomputable section

namespace Cert.KernelIdeal.Chain

open Cert.KernelIdeal Cert.KernelIdeal.Gen Idealize.ShloMosaic Idealize.ShloMosaic.TcCoe Idealize.SL.Sem Idealize.ShloMosaic.StableHlo

/-! ## The shared functions -/

/-- Every edge's source node, then the self loops. -/
def sources (ei : IVec S2x800000 32) : IVec S850000 32 :=
  concatenate S850000 0 [⟨S800000, shapeCast _ (extractStridedSlice S1x800000 ![0, 0] ei slices_S2x800000_S1x800000_0_0) shapeCasts_S1x800000_S800000⟩, ⟨S50000, iotaInDim S50000 32 0⟩] concatenates_S800000_S50000_S850000_d0

/-- Every edge's target node, then the self loops. -/
def targets (ei : IVec S2x800000 32) : IVec S850000 32 :=
  concatenate S850000 0 [⟨S800000, shapeCast _ (extractStridedSlice S1x800000 ![1, 0] ei slices_S2x800000_S1x800000_1_0) shapeCasts_S1x800000_S800000⟩, ⟨S50000, iotaInDim S50000 32 0⟩] concatenates_S800000_S50000_S850000_d0

/-- A negative node index counts from the end. -/
def wrap (r : IVec S850000 32) : IVec S850000 32 :=
  select (cmpi .slt r (broadcastInDim S850000 ![] bcast_S_S850000 (constantI S_ 32 0#32))) (addi r (broadcastInDim S850000 ![] bcast_S_S850000 (constantI S_ 32 50000#32))) r

/-- A per-edge vector as a one-column matrix. -/
def column {α : Type} (r : S850000.Idx → α) : S850000x1.Idx → α :=
  broadcastInDim S850000x1 ![0] bcast_S850000_S850000x1_0 r

/-- The number of edges arriving at each node: a one added per edge at its target. -/
def degree (d : IVec S850000 32) : FVec Ideal S50000 .f32 :=
  Host.scatterAdd scatter_S50000_S850000x1_S850000_n_0_0_1 (broadcastInDim S50000 ![] bcast_S_S50000 (constant (F := Ideal) S_ .f32 0x00000000#32)) (column d) (broadcastInDim S850000 ![] bcast_S_S850000 (constant (F := Ideal) S_ .f32 0x3F800000#32))

/-- Is the node's degree positive? -/
def hasEdges (d : IVec S850000 32) : IVec S50000 1 :=
  cmpf (F := Ideal) .ogt (degree d) (broadcastInDim S50000 ![] bcast_S_S50000 (constant (F := Ideal) S_ .f32 0x00000000#32))

/-- 1 / √degree, before the guard. -/
def rawInvSqrt (d : IVec S850000 32) : FVec Ideal S50000 .f32 :=
  Host.divf (F := Ideal) (broadcastInDim S50000 ![] bcast_S_S50000 (constant (F := Ideal) S_ .f32 0x3F800000#32)) (Host.sqrt (F := Ideal) (degree d))

/-- 1 / √degree where the degree is positive, 0 elsewhere. -/
def invSqrtDeg (d : IVec S850000 32) : FVec Ideal S50000 .f32 :=
  select (hasEdges d) (rawInvSqrt d) (broadcastInDim S50000 ![] bcast_S_S50000 (id (constant (F := Ideal) S_ .f32 0x00000000#32)))

/-- An edge's weight, from the guarded inverse roots `q` of the degrees: q(source) · q(target). -/
def edgeWeightOf (q : FVec Ideal S50000 .f32) (s d : IVec S850000 32) : FVec Ideal S850000 .f32 :=
  mulf (Host.gather gather_S50000_S850000x1_S850000_n_0_n_n_0_1_1 q (column (wrap s))) (Host.gather gather_S50000_S850000x1_S850000_n_0_n_n_0_1_1 q (column (wrap d)))

/-- An edge's weight: invSqrtDeg(source) · invSqrtDeg(target). -/
def edgeWeight (s d : IVec S850000 32) : FVec Ideal S850000 .f32 := edgeWeightOf (invSqrtDeg d) s d

/-- A layer's aggregation at 128 features: gather rows at the sources, scale by the edge weights, add up at the
    targets, add the bias row. -/
def aggregate128 (h : FVec Ideal S50000x128 .f32) (s d : IVec S850000 32) (wgt : FVec Ideal S850000 .f32) (b : FVec Ideal S128 .f32) : FVec Ideal S50000x128 .f32 :=
  addf (Host.scatterAdd scatter_S50000x128_S850000x1_S850000x128_1_0_0_1 (broadcastInDim S50000x128 ![] bcast_S_S50000x128 (constant (F := Ideal) S_ .f32 0x00000000#32)) (column d) (mulf (Host.gather gather_S50000x128_S850000x1_S850000x128_1_0_n_n_0_1_1128 h (column (wrap s))) (broadcastInDim S850000x128 ![0, 1] bcast_S850000x1_S850000x128_0_1 (column wgt)))) (broadcastInDim S50000x128 ![0, 1] bcast_S1x128_S50000x128_0_1 (broadcastInDim S1x128 ![1] bcast_S128_S1x128_1 b))

/-- The same at 64 features. -/
def aggregate64 (h : FVec Ideal S50000x64 .f32) (s d : IVec S850000 32) (wgt : FVec Ideal S850000 .f32) (b : FVec Ideal S64 .f32) : FVec Ideal S50000x64 .f32 :=
  addf (Host.scatterAdd scatter_S50000x64_S850000x1_S850000x64_1_0_0_1 (broadcastInDim S50000x64 ![] bcast_S_S50000x64 (constant (F := Ideal) S_ .f32 0x00000000#32)) (column d) (mulf (Host.gather gather_S50000x64_S850000x1_S850000x64_1_0_n_n_0_1_164 h (column (wrap s))) (broadcastInDim S850000x64 ![0, 1] bcast_S850000x1_S850000x64_0_1 (column wgt)))) (broadcastInDim S50000x64 ![0, 1] bcast_S1x64_S50000x64_0_1 (broadcastInDim S1x64 ![1] bcast_S64_S1x64_1 b))

/-- max(·, 0), entry by entry. -/
def relu (z : FVec Ideal S50000x128 .f32) : FVec Ideal S50000x128 .f32 :=
  maximumf z (broadcastInDim S50000x128 ![] bcast_S_S50000x128 (constant (F := Ideal) S_ .f32 0x00000000#32))

/-! ## The network, of the argument arrays -/

/-- The hidden layer: x · W1 aggregated over the graph, plus b1, rectified. -/
def hiddenOf (x : FVec Ideal S50000x128 .f32) (ei : IVec S2x800000 32) (w1 : FVec Ideal S128x128 .f32) (b1 : FVec Ideal S128 .f32) :
    FVec Ideal S50000x128 .f32 :=
  relu (aggregate128 (GraphConv.prod (M := 50000) (K := 128) (N := 128) x w1) (sources ei) (targets ei) (edgeWeight (sources ei) (targets ei)) b1)

/-- An output head with weights `wh` and bias `bh`: hidden · wh aggregated over the graph, plus bh. -/
def headOf (x : FVec Ideal S50000x128 .f32) (ei : IVec S2x800000 32) (w1 : FVec Ideal S128x128 .f32) (b1 : FVec Ideal S128 .f32)
    (wh : FVec Ideal S128x64 .f32) (bh : FVec Ideal S64 .f32) : FVec Ideal S50000x64 .f32 :=
  aggregate64 (GraphConv.prod (M := 50000) (K := 128) (N := 64) (hiddenOf x ei w1 b1) wh) (sources ei) (targets ei) (edgeWeight (sources ei) (targets ei)) bh

/-! ## What each stretch of host operations computes, from any contents `W` before it -/

variable (W : Valuation τ sig (Elt Ideal))

/-- The first stretch builds the two index vectors … -/
theorem first_sources : after hostOps0 W (Proc.devRef .tc main_v3) = sources (W (Proc.devRef .tc main_arg1)) := by
  dsimp only [hostOps0]; after_results_simp <;> rfl
theorem first_targets : after hostOps0 W (Proc.devRef .tc main_v6) = targets (W (Proc.devRef .tc main_arg1)) := by
  dsimp only [hostOps0]; after_results_simp <;> rfl
/-- … the degree test and the unguarded inverse roots … -/
theorem first_hasEdges : after hostOps0 W (Proc.devRef .tc main_v12) = hasEdges (targets (W (Proc.devRef .tc main_arg1))) := by
  dsimp only [hostOps0]; after_results_simp <;> rfl
theorem first_rawInvSqrt : after hostOps0 W (Proc.devRef .tc main_v15) = rawInvSqrt (targets (W (Proc.devRef .tc main_arg1))) := by
  dsimp only [hostOps0]; after_results_simp <;> rfl
/-- … and the zero that the guard falls back to. -/
theorem first_zero : after hostOps0 W (Proc.devRef .tc main_cst_3) = constant (F := Ideal) S_ .f32 0x00000000#32 := by
  dsimp only [hostOps0]; after_results_simp <;> rfl

/-- The guard: the selected inverse roots. -/
theorem guard_select : after hostOps0_1 W (Proc.devRef .tc main_v16)
    = select (W (Proc.devRef .tc main_v12)) (W (Proc.devRef .tc main_v15)) (broadcastInDim S50000 ![] bcast_S_S50000 (id (W (Proc.devRef .tc main_cst_3)))) := by
  dsimp only [hostOps0_1]; after_results_simp <;> rfl

/-- The third stretch: the edges' weights from the guarded inverse roots. -/
theorem third_weights : after hostOps0_2 W (Proc.devRef .tc main_v31)
    = edgeWeightOf (W (Proc.devRef .tc main_v16)) (W (Proc.devRef .tc main_v3)) (W (Proc.devRef .tc main_v6)) := by
  dsimp only [hostOps0_2]; after_results_simp <;> rfl

/-- After the first launch: the first layer's aggregation of the launch's result … -/
theorem layer1_aggregate : after hostOps1 W (Proc.devRef .tc main_v48)
    = aggregate128 (W (Proc.devRef .tc main_v32)) (W (Proc.devRef .tc main_v3)) (W (Proc.devRef .tc main_v6)) (W (Proc.devRef .tc main_v31)) (W (Proc.devRef .tc main_arg3)) := by
  dsimp only [hostOps1]; after_results_simp <;> rfl
/-- … and its rectifier. -/
theorem layer1_relu : after hostOps1_1 W (Proc.devRef .tc main_v49) = relu (W (Proc.devRef .tc main_v48)) := by
  dsimp only [hostOps1_1]; after_results_simp <;> rfl

/-- After the second launch: the mean head's aggregation. -/
theorem mean_aggregate : after hostOps2 W (Proc.devRef .tc main_v66)
    = aggregate64 (W (Proc.devRef .tc main_v50)) (W (Proc.devRef .tc main_v3)) (W (Proc.devRef .tc main_v6)) (W (Proc.devRef .tc main_v31)) (W (Proc.devRef .tc main_arg5)) := by
  dsimp only [hostOps2]; after_results_simp <;> rfl

/-- After the third launch: the log-deviation head's aggregation. -/
theorem logstd_aggregate : after hostOps3 W (Proc.devRef .tc main_v83)
    = aggregate64 (W (Proc.devRef .tc main_v67)) (W (Proc.devRef .tc main_v3)) (W (Proc.devRef .tc main_v6)) (W (Proc.devRef .tc main_v31)) (W (Proc.devRef .tc main_arg7)) := by
  dsimp only [hostOps3]; after_results_simp <;> rfl

/-! ## What each stretch writes, and what it therefore leaves alone

Every operation writes exactly one buffer; a buffer outside a stretch's list keeps its contents through it. -/

/-- The buffers `hostOps0`'s operations write. -/
abbrev written0 : List (Ref sig .tc) := [main_v0, main_v1, main_v2, main_v3, main_v4, main_v5, main_v6, main_cst, main_v7, main_cst_0, main_v8, main_v9, main_v10, main_cst_1, main_v11, main_v12, main_v13, main_cst_2, main_v14, main_v15, main_cst_3]
theorem writes0 : (hostOps0 : List (HloOp τ sig (Elt Ideal))).Forall fun op => op.writes ⊆ (written0.map (Proc.devRef (τ := τ) .tc)).toFinset := by
  simp only [hostOps0, List.Forall]
  repeat' apply And.intro
  all_goals (simp only [nullary_writes, unary_writes, binary_writes, ternary_writes, reshape_writes, Finset.singleton_subset_iff, List.mem_toFinset]; exact List.mem_map_of_mem (by decide))
theorem unwritten0 (r : Ref sig .tc) (h : r ∉ written0) : after hostOps0 W (Proc.devRef .tc r) = W (Proc.devRef .tc r) :=
  after_of_writes_sub hostOps0 W writes0 h

/-- The buffers `hostOps0_1`'s operations write. -/
abbrev written0_1 : List (Ref sig .tc) := [main_call0_v0, main_call0_v1, main_v16]
theorem writes0_1 : (hostOps0_1 : List (HloOp τ sig (Elt Ideal))).Forall fun op => op.writes ⊆ (written0_1.map (Proc.devRef (τ := τ) .tc)).toFinset := by
  simp only [hostOps0_1, List.Forall]
  repeat' apply And.intro
  all_goals (simp only [nullary_writes, unary_writes, binary_writes, ternary_writes, reshape_writes, Finset.singleton_subset_iff, List.mem_toFinset]; exact List.mem_map_of_mem (by decide))
theorem unwritten0_1 (r : Ref sig .tc) (h : r ∉ written0_1) : after hostOps0_1 W (Proc.devRef .tc r) = W (Proc.devRef .tc r) :=
  after_of_writes_sub hostOps0_1 W writes0_1 h

/-- The buffers `hostOps0_2`'s operations write. -/
abbrev written0_2 : List (Ref sig .tc) := [main_c, main_v17, main_v18, main_c_4, main_v19, main_v20, main_v21, main_v22, main_v23, main_c_5, main_v24, main_v25, main_c_6, main_v26, main_v27, main_v28, main_v29, main_v30, main_v31]
theorem writes0_2 : (hostOps0_2 : List (HloOp τ sig (Elt Ideal))).Forall fun op => op.writes ⊆ (written0_2.map (Proc.devRef (τ := τ) .tc)).toFinset := by
  simp only [hostOps0_2, List.Forall]
  repeat' apply And.intro
  all_goals (simp only [nullary_writes, unary_writes, binary_writes, ternary_writes, reshape_writes, Finset.singleton_subset_iff, List.mem_toFinset]; exact List.mem_map_of_mem (by decide))
theorem unwritten0_2 (r : Ref sig .tc) (h : r ∉ written0_2) : after hostOps0_2 W (Proc.devRef .tc r) = W (Proc.devRef .tc r) :=
  after_of_writes_sub hostOps0_2 W writes0_2 h

/-- The buffers `hostOps1`'s operations write. -/
abbrev written1 : List (Ref sig .tc) := [main_c_7, main_v33, main_v34, main_c_8, main_v35, main_v36, main_v37, main_v38, main_v39, main_v40, main_v41, main_v42, main_cst_9, main_v43, main_v44, main_v45, main_v46, main_v47, main_v48]
theorem writes1 : (hostOps1 : List (HloOp τ sig (Elt Ideal))).Forall fun op => op.writes ⊆ (written1.map (Proc.devRef (τ := τ) .tc)).toFinset := by
  simp only [hostOps1, List.Forall]
  repeat' apply And.intro
  all_goals (simp only [nullary_writes, unary_writes, binary_writes, ternary_writes, reshape_writes, Finset.singleton_subset_iff, List.mem_toFinset]; exact List.mem_map_of_mem (by decide))
theorem unwritten1 (r : Ref sig .tc) (h : r ∉ written1) : after hostOps1 W (Proc.devRef .tc r) = W (Proc.devRef .tc r) :=
  after_of_writes_sub hostOps1 W writes1 h

/-- The buffers `hostOps1_1`'s operations write. -/
abbrev written1_1 : List (Ref sig .tc) := [main_call1_cst, main_call1_v0, main_v49]
theorem writes1_1 : (hostOps1_1 : List (HloOp τ sig (Elt Ideal))).Forall fun op => op.writes ⊆ (written1_1.map (Proc.devRef (τ := τ) .tc)).toFinset := by
  simp only [hostOps1_1, List.Forall]
  repeat' apply And.intro
  all_goals (simp only [nullary_writes, unary_writes, binary_writes, ternary_writes, reshape_writes, Finset.singleton_subset_iff, List.mem_toFinset]; exact List.mem_map_of_mem (by decide))
theorem unwritten1_1 (r : Ref sig .tc) (h : r ∉ written1_1) : after hostOps1_1 W (Proc.devRef .tc r) = W (Proc.devRef .tc r) :=
  after_of_writes_sub hostOps1_1 W writes1_1 h

/-- The buffers `hostOps2`'s operations write. -/
abbrev written2 : List (Ref sig .tc) := [main_c_10, main_v51, main_v52, main_c_11, main_v53, main_v54, main_v55, main_v56, main_v57, main_v58, main_v59, main_v60, main_cst_12, main_v61, main_v62, main_v63, main_v64, main_v65, main_v66]
theorem writes2 : (hostOps2 : List (HloOp τ sig (Elt Ideal))).Forall fun op => op.writes ⊆ (written2.map (Proc.devRef (τ := τ) .tc)).toFinset := by
  simp only [hostOps2, List.Forall]
  repeat' apply And.intro
  all_goals (simp only [nullary_writes, unary_writes, binary_writes, ternary_writes, reshape_writes, Finset.singleton_subset_iff, List.mem_toFinset]; exact List.mem_map_of_mem (by decide))
theorem unwritten2 (r : Ref sig .tc) (h : r ∉ written2) : after hostOps2 W (Proc.devRef .tc r) = W (Proc.devRef .tc r) :=
  after_of_writes_sub hostOps2 W writes2 h

/-- The buffers `hostOps3`'s operations write. -/
abbrev written3 : List (Ref sig .tc) := [main_c_13, main_v68, main_v69, main_c_14, main_v70, main_v71, main_v72, main_v73, main_v74, main_v75, main_v76, main_v77, main_cst_15, main_v78, main_v79, main_v80, main_v81, main_v82, main_v83]
theorem writes3 : (hostOps3 : List (HloOp τ sig (Elt Ideal))).Forall fun op => op.writes ⊆ (written3.map (Proc.devRef (τ := τ) .tc)).toFinset := by
  simp only [hostOps3, List.Forall]
  repeat' apply And.intro
  all_goals (simp only [nullary_writes, unary_writes, binary_writes, ternary_writes, reshape_writes, Finset.singleton_subset_iff, List.mem_toFinset]; exact List.mem_map_of_mem (by decide))
theorem unwritten3 (r : Ref sig .tc) (h : r ∉ written3) : after hostOps3 W (Proc.devRef .tc r) = W (Proc.devRef .tc r) :=
  after_of_writes_sub hostOps3 W writes3 h

end Cert.KernelIdeal.Chain

end
-- ==== Proof.Region0.lean ====
/-
  Launch 0 of the row-tiled product kernel: the first layer's product x · W1, [50000, 128] by [128, 128].
  The grid has ten points. Point t stages rows 5000·t … 5000·t + 4999 of the left operand (all 128 columns), the
  whole weight matrix, and writes back the same rows of the result. What it writes is the product of its row
  block with the weights: rounding the operands to bf16 is the identity on extended reals, and the matrix
  product into an all-zero accumulator is the plain sum over the contracted index. An entry of the result depends
  only on its own row of the left operand, so the ten row blocks are the restrictions of ONE function of the
  whole arrays, `prod`, and since the blocks tile the rows the result array ends holding exactly that function.
-/
import proofs.«149232_j77773267796720_1_alg».proof.Proof.Gen.KernelIdeal.Frame
import proofs.«149232_j77773267796720_1_alg».proof.Proof.PlainProduct
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen GraphConv

-- the buffer contents the launch is entered from: any
variable (V : (c : Dev nD) → (b : Ref sig .tc) → Buf (Elt Ideal) ((c : Thread nD τ).loc b))

theorem hz : (![0, 0] : Fin 2 → Nat) = fun _ => 0 := funext fun a => by fin_cases a <;> rfl

/-- What the body stores is the product of the two blocks it loaded. -/
theorem stored_eq (x0 : Vec Ideal S5000x128 .f32) (x1 : Vec Ideal S128x128 .f32) : k0_pay1 x0 x1 = prod x0 x1 := by
  unfold k0_pay1
  exact matmul_zero_eq _ rfl none _ _

/-- The printed block index maps over the grid: the left operand and the result move down the rows with the
    point, column block 0; the weights stay at block (0, 0). -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is rows 5000·t … of the product of the whole arrays. -/
theorem written_back (c : Dev nD) (t : Fin cfg0.N) :
    (dat0 V c).flushed 2 t = ((cfg0.win 2).blk t).view.read (Elt Ideal) (prod (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  rw [stored_eq]
  obtain ⟨e0, e1, e2, e3, e4, e5⟩ := index_maps t
  funext j
  -- the two operand arrays as functions of their indices
  let A : S50000x128.Idx → EReal := V c main_arg0
  let B : S128x128.Idx → EReal := V c main_arg2
  show ∑ k : Fin 128, A (((cfg0.win 0).blk t).view.emb (ix2 (j 0) k)) * B (((cfg0.win 1).blk t).view.emb (ix2 k (j 1)))
    = ∑ k : Fin 128, A (ix2 ((((cfg0.win 2).blk t).view.emb j) 0) k) * B (ix2 k ((((cfg0.win 2).blk t).view.emb j) 1))
  refine Finset.sum_congr rfl fun k _ => ?_
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : ((cfg0.win 1).blk t).view.emb (ix2 k (j 1)) = ix2 k ((((cfg0.win 2).blk t).view.emb j) 1) := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  exact congrArg₂ (· * ·) (congrArg A h0) (congrArg B h1)

/-- An index of the result array lies in point `t`'s block iff each coordinate lies in the block's range. -/
theorem mem_block (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- Row r of the result is written back by point r / 5000: the ten row blocks tile the array. -/
theorem tiled (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨e0, e1, e2, e3, e4, e5⟩ := index_maps t
  have ht : t.val = (i 0).val / 5000 := rfl
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- THE RESULT ARRAY after the launch: the product of the two operand arrays as the launch found them. -/
theorem result (c : Dev nD) : (dat0 V c).arrAt 2 cfg0.N = prod (V c main_arg0) (V c main_arg2) :=
  (dat0 V c).arrAt_eq_of_cover 2 (prod (V c main_arg0) (V c main_arg2)) (fun t _ => written_back V c t) tiled

end Cert.KernelIdeal.Region0

end
-- ==== Proof.Region1.lean ====
/-
  Launch 1 of the row-tiled product kernel: the mean head's product hidden · W_mu, [50000, 128] by [128, 64].
  The grid has ten points. Point t stages rows 5000·t … 5000·t + 4999 of the left operand (all 128 columns), the
  whole weight matrix, and writes back the same rows of the result. What it writes is the product of its row
  block with the weights: rounding the operands to bf16 is the identity on extended reals, and the matrix
  product into an all-zero accumulator is the plain sum over the contracted index. An entry of the result depends
  only on its own row of the left operand, so the ten row blocks are the restrictions of ONE function of the
  whole arrays, `prod`, and since the blocks tile the rows the result array ends holding exactly that function.
-/
import proofs.«149232_j77773267796720_1_alg».proof.Proof.Gen.KernelIdeal.Frame
import proofs.«149232_j77773267796720_1_alg».proof.Proof.PlainProduct
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen GraphConv

-- the buffer contents the launch is entered from: any
variable (V : (c : Dev nD) → (b : Ref sig .tc) → Buf (Elt Ideal) ((c : Thread nD τ).loc b))

theorem hz : (![0, 0] : Fin 2 → Nat) = fun _ => 0 := funext fun a => by fin_cases a <;> rfl

/-- What the body stores is the product of the two blocks it loaded. -/
theorem stored_eq (x0 : Vec Ideal S5000x128 .f32) (x1 : Vec Ideal S128x64 .f32) : k1_pay1 x0 x1 = prod x0 x1 := by
  unfold k1_pay1
  simp only [shapeCast_self]
  exact matmul_zero_eq _ rfl none _ _

/-- The printed block index maps over the grid: the left operand and the result move down the rows with the
    point, column block 0; the weights stay at block (0, 0). -/
theorem index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is rows 5000·t … of the product of the whole arrays. -/
theorem written_back (c : Dev nD) (t : Fin cfg1.N) :
    (dat1 V c).flushed 2 t = ((cfg1.win 2).blk t).view.read (Elt Ideal) (prod (V c main_v49) (V c main_arg4)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x64) hz]
  rw [stored_eq]
  obtain ⟨e0, e1, e2, e3, e4, e5⟩ := index_maps t
  funext j
  -- the two operand arrays as functions of their indices
  let A : S50000x128.Idx → EReal := V c main_v49
  let B : S128x64.Idx → EReal := V c main_arg4
  show ∑ k : Fin 128, A (((cfg1.win 0).blk t).view.emb (ix2 (j 0) k)) * B (((cfg1.win 1).blk t).view.emb (ix2 k (j 1)))
    = ∑ k : Fin 128, A (ix2 ((((cfg1.win 2).blk t).view.emb j) 0) k) * B (ix2 k ((((cfg1.win 2).blk t).view.emb j) 1))
  refine Finset.sum_congr rfl fun k _ => ?_
  have h0 : ((cfg1.win 0).blk t).view.emb (ix2 (j 0) k) = ix2 ((((cfg1.win 2).blk t).view.emb j) 0) k := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * k.val = k.val; omega
  have h1 : ((cfg1.win 1).blk t).view.emb (ix2 k (j 1)) = ix2 k ((((cfg1.win 2).blk t).view.emb j) 1) := by
    funext a; apply Fin.ext
    match a with
    | ⟨0, _⟩ => show win1_1.index t (0 : Fin 2) * 128 + 1 * k.val = k.val; omega
    | ⟨1, _⟩ => show win1_1.index t (1 : Fin 2) * 64 + 1 * (j 1).val = win1_2.index t (1 : Fin 2) * 64 + 1 * (j 1).val; omega
  exact congrArg₂ (· * ·) (congrArg A h0) (congrArg B h1)

/-- An index of the result array lies in point `t`'s block iff each coordinate lies in the block's range. -/
theorem mem_block (t : Fin cfg1.N) (i : S50000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v50).slice (win1_2.rect t)).set ↔ _
  rw [View.set_slice_whole, Rect.mem_set_unit]
  exact Iff.rfl

/-- Row r of the result is written back by point r / 5000: the ten row blocks tile the array. -/
theorem tiled (i : S50000x64.Idx) : ∃ t : Fin cfg1.N, (cfg1.win 2).flush t = true ∧ i ∈ ((cfg1.win 2).blk t).view.set := by
  have hi0 : (i 0).val < 50000 := (i 0).isLt
  have hi1 : (i 1).val < 64 := (i 1).isLt
  have hN : cfg1.N = 10 := N_1
  let t : Fin cfg1.N := ⟨(i 0).val / 5000, by rw [hN]; omega⟩
  obtain ⟨e0, e1, e2, e3, e4, e5⟩ := index_maps t
  have ht : t.val = (i 0).val / 5000 := rfl
  refine ⟨t, flush1_2 t, ?_⟩
  rw [mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- THE RESULT ARRAY after the launch: the product of the two operand arrays as the launch found them. -/
theorem result (c : Dev nD) : (dat1 V c).arrAt 2 cfg1.N = prod (V c main_v49) (V c main_arg4) :=
  (dat1 V c).arrAt_eq_of_cover 2 (prod (V c main_v49) (V c main_arg4)) (fun t _ => written_back V c t) tiled

end Cert.KernelIdeal.Region1

end
-- ==== Proof.Region2.lean ====
/-
  Launch 2 of the row-tiled product kernel: the log-deviation head's product hidden · W_logstd, [50000, 128] by [128, 64].
  The grid has ten points. Point t stages rows 5000·t … 5000·t + 4999 of the left operand (all 128 columns), the
  whole weight matrix, and writes back the same rows of the result. What it writes is the product of its row
  block with the weights: rounding the operands to bf16 is the identity on extended reals, and the matrix
  product into an all-zero accumulator is the plain sum over the contracted index. An entry of the result depends
  only on its own row of the left operand, so the ten row blocks are the restrictions of ONE function of the
  whole arrays, `prod`, and since the blocks tile the rows the result array ends holding exactly that function.
-/
import proofs.«149232_j77773267796720_1_alg».proof.Proof.Gen.KernelIdeal.Frame
import proofs.«149232_j77773267796720_1_alg».proof.Proof.PlainProduct
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen GraphConv

-- the buffer contents the launch is entered from: any
variable (V : (c : Dev nD) → (b : Ref sig .tc) → Buf (Elt Ideal) ((c : Thread nD τ).loc b))

theorem hz : (![0, 0] : Fin 2 → Nat) = fun _ => 0 := funext fun a => by fin_cases a <;> rfl

/-- What the body stores is the product of the two blocks it loaded. -/
theorem stored_eq (x0 : Vec Ideal S5000x128 .f32) (x1 : Vec Ideal S128x64 .f32) : k2_pay1 x0 x1 = prod x0 x1 := by
  unfold k2_pay1
  simp only [shapeCast_self]
  exact matmul_zero_eq _ rfl none _ _

/-- The printed block index maps over the grid: the left operand and the result move down the rows with the
    point, column block 0; the weights stay at block (0, 0). -/
theorem index_maps : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is rows 5000·t … of the product of the whole arrays. -/
theorem written_back (c : Dev nD) (t : Fin cfg2.N) :
    (dat2 V c).flushed 2 t = ((cfg2.win 2).blk t).view.read (Elt Ideal) (prod (V c main_v49) (V c main_arg6)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x64) hz]
  rw [stored_eq]
  obtain ⟨e0, e1, e2, e3, e4, e5⟩ := index_maps t
  funext j
  -- the two operand arrays as functions of their indices
  let A : S50000x128.Idx → EReal := V c main_v49
  let B : S128x64.Idx → EReal := V c main_arg6
  show ∑ k : Fin 128, A (((cfg2.win 0).blk t).view.emb (ix2 (j 0) k)) * B (((cfg2.win 1).blk t).view.emb (ix2 k (j 1)))
    = ∑ k : Fin 128, A (ix2 ((((cfg2.win 2).blk t).view.emb j) 0) k) * B (ix2 k ((((cfg2.win 2).blk t).view.emb j) 1))
  refine Finset.sum_congr rfl fun k _ => ?_
  have h0 : ((cfg2.win 0).blk t).view.emb (ix2 (j 0) k) = ix2 ((((cfg2.win 2).blk t).view.emb j) 0) k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  have h1 : ((cfg2.win 1).blk t).view.emb (ix2 k (j 1)) = ix2 k ((((cfg2.win 2).blk t).view.emb j) 1) := by
    funext a; apply Fin.ext
    match a with
    | ⟨0, _⟩ => show win2_1.index t (0 : Fin 2) * 128 + 1 * k.val = k.val; omega
    | ⟨1, _⟩ => show win2_1.index t (1 : Fin 2) * 64 + 1 * (j 1).val = win2_2.index t (1 : Fin 2) * 64 + 1 * (j 1).val; omega
  exact congrArg₂ (· * ·) (congrArg A h0) (congrArg B h1)

/-- An index of the result array lies in point `t`'s block iff each coordinate lies in the block's range. -/
theorem mem_block (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v67).slice (win2_2.rect t)).set ↔ _
  rw [View.set_slice_whole, Rect.mem_set_unit]
  exact Iff.rfl

/-- Row r of the result is written back by point r / 5000: the ten row blocks tile the array. -/
theorem tiled (i : S50000x64.Idx) : ∃ t : Fin cfg2.N, (cfg2.win 2).flush t = true ∧ i ∈ ((cfg2.win 2).blk t).view.set := by
  have hi0 : (i 0).val < 50000 := (i 0).isLt
  have hi1 : (i 1).val < 64 := (i 1).isLt
  have hN : cfg2.N = 10 := N_2
  let t : Fin cfg2.N := ⟨(i 0).val / 5000, by rw [hN]; omega⟩
  obtain ⟨e0, e1, e2, e3, e4, e5⟩ := index_maps t
  have ht : t.val = (i 0).val / 5000 := rfl
  refine ⟨t, flush2_2 t, ?_⟩
  rw [mem_block]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- THE RESULT ARRAY after the launch: the product of the two operand arrays as the launch found them. -/
theorem result (c : Dev nD) : (dat2 V c).arrAt 2 cfg2.N = prod (V c main_v49) (V c main_arg6) :=
  (dat2 V c).arrAt_eq_of_cover 2 (prod (V c main_v49) (V c main_arg6)) (fun t _ => written_back V c t) tiled

end Cert.KernelIdeal.Region2

end
-- ==== Proof.Fold.lean ====
/-
  The kernel program's two results as functions of its arguments.

  The program alternates stretches of host operations with three launches of the row-tiled product kernel. Its
  buffer contents at each boundary (`Gen.W0` … `Gen.W10`, the generated frame's fold from the launch memory) are
  read here at the few buffers that matter:
    • before the first launch the host has built the edges' source and target vectors and their weights;
    • launch 0 leaves x · W1 (`Region0.result`); the next stretches aggregate it over the graph, add the bias and
      rectify: the hidden layer `hidden`;
    • launch 1 leaves hidden · W_mu, whose aggregation is the first result, `mean`;
    • launch 2 leaves hidden · W_logstd, whose aggregation is the second result, `logstd`.
  The index vectors, the weights and the five later arguments are written once (or never) and only read afterwards:
  `Carried` says a boundary still holds them, and every later stretch and launch preserves it.
-/
import proofs.«149232_j77773267796720_1_alg».proof.Proof.Gen.KernelIdeal.Frame
import proofs.«149232_j77773267796720_1_alg».proof.Proof.Chain
import proofs.«149232_j77773267796720_1_alg».proof.Proof.Region0
import proofs.«149232_j77773267796720_1_alg».proof.Proof.Region1
import proofs.«149232_j77773267796720_1_alg».proof.Proof.Region2

set_option maxRecDepth 16384

noncomputable section

open Idealize.ShloMosaic Idealize.ShloMosaic.TcCoe Idealize.SL.Sem Idealize.ShloMosaic.StableHlo

namespace Cert.KernelIdeal.Fold

open Cert.KernelIdeal Cert.KernelIdeal.Gen Cert.KernelIdeal.Chain GraphConv

variable (m : (ℓ : Loc nD τ sig) → Buf (Elt Ideal) ℓ) (ρ : Dev nD → PrngReg) (c : Dev nD)

/-! ## The network as a function of the argument arrays -/

/-- The edge list argument. -/
def edges : IVec S2x800000 32 := m ((c : Thread nD τ).loc main_arg1)

/-- The hidden layer of this memory's arguments. -/
def hidden : FVec Ideal S50000x128 .f32 :=
  hiddenOf (m ((c : Thread nD τ).loc main_arg0)) (edges m c) (m ((c : Thread nD τ).loc main_arg2)) (m ((c : Thread nD τ).loc main_arg3))

/-- The first result: the head with W_mu, b_mu. -/
def mean : FVec Ideal S50000x64 .f32 :=
  headOf (m ((c : Thread nD τ).loc main_arg0)) (edges m c) (m ((c : Thread nD τ).loc main_arg2)) (m ((c : Thread nD τ).loc main_arg3)) (m ((c : Thread nD τ).loc main_arg4)) (m ((c : Thread nD τ).loc main_arg5))

/-- The second result: the head with W_logstd, b_logstd. -/
def logstd : FVec Ideal S50000x64 .f32 :=
  headOf (m ((c : Thread nD τ).loc main_arg0)) (edges m c) (m ((c : Thread nD τ).loc main_arg2)) (m ((c : Thread nD τ).loc main_arg3)) (m ((c : Thread nD τ).loc main_arg6)) (m ((c : Thread nD τ).loc main_arg7))

/-! ## What is built once and then only read -/

/-- A boundary's contents `W` still hold the edges' index vectors and weights and the later layers' arguments. -/
structure Carried (W : Valuation τ sig (Elt Ideal)) : Prop where
  src : W (Proc.devRef .tc main_v3) = sources (edges m c)
  dst : W (Proc.devRef .tc main_v6) = targets (edges m c)
  wgt : W (Proc.devRef .tc main_v31) = edgeWeight (sources (edges m c)) (targets (edges m c))
  b1 : W (Proc.devRef .tc main_arg3) = m ((c : Thread nD τ).loc main_arg3)
  wMu : W (Proc.devRef .tc main_arg4) = m ((c : Thread nD τ).loc main_arg4)
  bMu : W (Proc.devRef .tc main_arg5) = m ((c : Thread nD τ).loc main_arg5)
  wLs : W (Proc.devRef .tc main_arg6) = m ((c : Thread nD τ).loc main_arg6)
  bLs : W (Proc.devRef .tc main_arg7) = m ((c : Thread nD τ).loc main_arg7)

/-- A stretch of host operations that writes none of those buffers preserves it. -/
theorem Carried.through {W : Valuation τ sig (Elt Ideal)} (ops : List (HloOp τ sig (Elt Ideal))) (L : List (Ref sig .tc))
    (hL : ops.Forall fun op => op.writes ⊆ (L.map (Proc.devRef (τ := τ) .tc)).toFinset)
    (hd : main_v3 ∉ L ∧ main_v6 ∉ L ∧ main_v31 ∉ L ∧ main_arg3 ∉ L ∧ main_arg4 ∉ L ∧ main_arg5 ∉ L ∧ main_arg6 ∉ L ∧ main_arg7 ∉ L)
    (h : Carried m c W) : Carried m c (after ops W) where
  src := (after_of_writes_sub ops W hL hd.1).trans h.src
  dst := (after_of_writes_sub ops W hL hd.2.1).trans h.dst
  wgt := (after_of_writes_sub ops W hL hd.2.2.1).trans h.wgt
  b1 := (after_of_writes_sub ops W hL hd.2.2.2.1).trans h.b1
  wMu := (after_of_writes_sub ops W hL hd.2.2.2.2.1).trans h.wMu
  bMu := (after_of_writes_sub ops W hL hd.2.2.2.2.2.1).trans h.bMu
  wLs := (after_of_writes_sub ops W hL hd.2.2.2.2.2.2.1).trans h.wLs
  bLs := (after_of_writes_sub ops W hL hd.2.2.2.2.2.2.2).trans h.bLs

/-! ## Before the first launch -/

/-- An argument no host operation before the first launch writes is still as launched. -/
theorem arg_at3 (r : Ref sig .tc) (h0 : r ∉ written0) (h1 : r ∉ written0_1) (h2 : r ∉ written0_2) :
    W3 m ρ c (Proc.devRef .tc r) = m ((c : Thread nD τ).loc r) := by
  show after hostOps0_2 (after hostOps0_1 (after hostOps0 (W0 m ρ c))) (Proc.devRef .tc r) = _
  rw [unwritten0_2 _ r h2, unwritten0_1 _ r h1, unwritten0 _ r h0]

theorem carried3 : Carried m c (W3 m ρ c) where
  src := by
    show after hostOps0_2 (after hostOps0_1 (after hostOps0 (W0 m ρ c))) (Proc.devRef .tc main_v3) = _
    rw [unwritten0_2 _ main_v3 (by decide), unwritten0_1 _ main_v3 (by decide), first_sources]
    rfl
  dst := by
    show after hostOps0_2 (after hostOps0_1 (after hostOps0 (W0 m ρ c))) (Proc.devRef .tc main_v6) = _
    rw [unwritten0_2 _ main_v6 (by decide), unwritten0_1 _ main_v6 (by decide), first_targets]
    rfl
  wgt := by
    show after hostOps0_2 (after hostOps0_1 (after hostOps0 (W0 m ρ c))) (Proc.devRef .tc main_v31) = _
    rw [third_weights, guard_select, unwritten0_1 _ main_v3 (by decide), unwritten0_1 _ main_v6 (by decide),
      first_sources, first_targets, first_hasEdges, first_rawInvSqrt, first_zero]
    rfl
  b1 := arg_at3 m ρ c main_arg3 (by decide) (by decide) (by decide)
  wMu := arg_at3 m ρ c main_arg4 (by decide) (by decide) (by decide)
  bMu := arg_at3 m ρ c main_arg5 (by decide) (by decide) (by decide)
  wLs := arg_at3 m ρ c main_arg6 (by decide) (by decide) (by decide)
  bLs := arg_at3 m ρ c main_arg7 (by decide) (by decide) (by decide)

/-! ## Launch 0 and the hidden layer -/

/-- Launch 0 leaves the first product. -/
theorem launch0_result : W4 m ρ c (Proc.devRef .tc main_v32) = prod (M := 50000) (K := 128) (N := 128) (m ((c : Thread nD τ).loc main_arg0)) (m ((c : Thread nD τ).loc main_arg2)) :=
  ((W4_arr m ρ c 2).trans (Region0.result (V3 m ρ) c)).trans
    (congrArg₂ (prod (M := 50000) (K := 128) (N := 128)) (arg_at3 m ρ c main_arg0 (by decide) (by decide) (by decide))
      (arg_at3 m ρ c main_arg2 (by decide) (by decide) (by decide)))

theorem carried4 : Carried m c (W4 m ρ c) where
  src := (W4_of_ne m ρ c main_v3 (by decide)).trans (carried3 m ρ c).src
  dst := (W4_of_ne m ρ c main_v6 (by decide)).trans (carried3 m ρ c).dst
  wgt := (W4_of_ne m ρ c main_v31 (by decide)).trans (carried3 m ρ c).wgt
  b1 := (W4_of_ne m ρ c main_arg3 (by decide)).trans (carried3 m ρ c).b1
  wMu := (W4_of_ne m ρ c main_arg4 (by decide)).trans (carried3 m ρ c).wMu
  bMu := (W4_of_ne m ρ c main_arg5 (by decide)).trans (carried3 m ρ c).bMu
  wLs := (W4_of_ne m ρ c main_arg6 (by decide)).trans (carried3 m ρ c).wLs
  bLs := (W4_of_ne m ρ c main_arg7 (by decide)).trans (carried3 m ρ c).bLs

/-- The two stretches after launch 0 leave the hidden layer. -/
theorem hidden_at6 : W6 m ρ c (Proc.devRef .tc main_v49) = hidden m c := by
  show after hostOps1_1 (after hostOps1 (W4 m ρ c)) (Proc.devRef .tc main_v49) = _
  rw [layer1_relu, layer1_aggregate, launch0_result, (carried4 m ρ c).src, (carried4 m ρ c).dst, (carried4 m ρ c).wgt, (carried4 m ρ c).b1]
  rfl

theorem carried6 : Carried m c (W6 m ρ c) :=
  ((carried4 m ρ c).through m c hostOps1 written1 writes1 (by decide)).through m c hostOps1_1 written1_1 writes1_1 (by decide)

/-! ## Launch 1 and the first result -/

/-- Launch 1 leaves hidden · W_mu … -/
theorem launch1_result : W7 m ρ c (Proc.devRef .tc main_v50) = prod (M := 50000) (K := 128) (N := 64) (hidden m c) (m ((c : Thread nD τ).loc main_arg4)) :=
  ((W7_arr m ρ c 2).trans (Region1.result (V6 m ρ) c)).trans
    (congrArg₂ (prod (M := 50000) (K := 128) (N := 64)) (hidden_at6 m ρ c) (carried6 m ρ c).wMu)

/-- … and its left operand, an input it only reads, in place. -/
theorem hidden_at7 : W7 m ρ c (Proc.devRef .tc main_v49) = hidden m c :=
  ((W7_arr m ρ c 0).trans (((dat1 (V6 m ρ) c).arrAt_in 0 rfl _).trans (A_eq1 (V6 m ρ) c 0))).trans (hidden_at6 m ρ c)

theorem carried7 : Carried m c (W7 m ρ c) where
  src := (W7_of_ne m ρ c main_v3 (by decide)).trans (carried6 m ρ c).src
  dst := (W7_of_ne m ρ c main_v6 (by decide)).trans (carried6 m ρ c).dst
  wgt := (W7_of_ne m ρ c main_v31 (by decide)).trans (carried6 m ρ c).wgt
  b1 := (W7_of_ne m ρ c main_arg3 (by decide)).trans (carried6 m ρ c).b1
  wMu := ((W7_arr m ρ c 1).trans (((dat1 (V6 m ρ) c).arrAt_in 1 rfl _).trans (A_eq1 (V6 m ρ) c 1))).trans (carried6 m ρ c).wMu
  bMu := (W7_of_ne m ρ c main_arg5 (by decide)).trans (carried6 m ρ c).bMu
  wLs := (W7_of_ne m ρ c main_arg6 (by decide)).trans (carried6 m ρ c).wLs
  bLs := (W7_of_ne m ρ c main_arg7 (by decide)).trans (carried6 m ρ c).bLs

/-- The stretch after launch 1 leaves the first result … -/
theorem mean_at8 : W8 m ρ c (Proc.devRef .tc main_v66) = mean m c := by
  show after hostOps2 (W7 m ρ c) (Proc.devRef .tc main_v66) = _
  rw [mean_aggregate, launch1_result, (carried7 m ρ c).src, (carried7 m ρ c).dst, (carried7 m ρ c).wgt, (carried7 m ρ c).bMu]
  rfl

/-- … and the hidden layer in place. -/
theorem hidden_at8 : W8 m ρ c (Proc.devRef .tc main_v49) = hidden m c := by
  show after hostOps2 (W7 m ρ c) (Proc.devRef .tc main_v49) = _
  rw [unwritten2 _ main_v49 (by decide)]
  exact hidden_at7 m ρ c

theorem carried8 : Carried m c (W8 m ρ c) :=
  (carried7 m ρ c).through m c hostOps2 written2 writes2 (by decide)

/-! ## Launch 2 and the second result -/

/-- Launch 2 leaves hidden · W_logstd … -/
theorem launch2_result : W9 m ρ c (Proc.devRef .tc main_v67) = prod (M := 50000) (K := 128) (N := 64) (hidden m c) (m ((c : Thread nD τ).loc main_arg6)) :=
  ((W9_arr m ρ c 2).trans (Region2.result (V8 m ρ) c)).trans
    (congrArg₂ (prod (M := 50000) (K := 128) (N := 64)) (hidden_at8 m ρ c) (carried8 m ρ c).wLs)

/-- … and the first result, which it does not touch. -/
theorem mean_at9 : W9 m ρ c (Proc.devRef .tc main_v66) = mean m c :=
  (W9_of_ne m ρ c main_v66 (by decide)).trans (mean_at8 m ρ c)

theorem carried9 : Carried m c (W9 m ρ c) where
  src := (W9_of_ne m ρ c main_v3 (by decide)).trans (carried8 m ρ c).src
  dst := (W9_of_ne m ρ c main_v6 (by decide)).trans (carried8 m ρ c).dst
  wgt := (W9_of_ne m ρ c main_v31 (by decide)).trans (carried8 m ρ c).wgt
  b1 := (W9_of_ne m ρ c main_arg3 (by decide)).trans (carried8 m ρ c).b1
  wMu := (W9_of_ne m ρ c main_arg4 (by decide)).trans (carried8 m ρ c).wMu
  bMu := (W9_of_ne m ρ c main_arg5 (by decide)).trans (carried8 m ρ c).bMu
  wLs := ((W9_arr m ρ c 1).trans (((dat2 (V8 m ρ) c).arrAt_in 1 rfl _).trans (A_eq2 (V8 m ρ) c 1))).trans (carried8 m ρ c).wLs
  bLs := (W9_of_ne m ρ c main_arg7 (by decide)).trans (carried8 m ρ c).bLs

/-- At the return the first result is still in place … -/
theorem mean_at_end : W10 m ρ c (Proc.devRef .tc main_v66) = mean m c := by
  show after hostOps3 (W9 m ρ c) (Proc.devRef .tc main_v66) = _
  rw [unwritten3 _ main_v66 (by decide)]
  exact mean_at9 m ρ c

/-- … and the last stretch has left the second. -/
theorem logstd_at_end : W10 m ρ c (Proc.devRef .tc main_v83) = logstd m c := by
  show after hostOps3 (W9 m ρ c) (Proc.devRef .tc main_v83) = _
  rw [logstd_aggregate, launch2_result, (carried9 m ρ c).src, (carried9 m ρ c).dst, (carried9 m ρ c).wgt, (carried9 m ρ c).bLs]
  rfl

end Cert.KernelIdeal.Fold

end
-- ==== Proof.RefValue.lean ====
/-
  The reference program computes the same network.

  Its run ends with each result at one composed term of the argument arrays: the same host operations in the same
  order as the kernel program's stretches, with the host's dot_general where the kernel program launches its product
  kernel. A dot_general that contracts the left operand's columns with the right operand's rows is the plain product
  `prod`; with the three of them rewritten, each composed term is, symbol for symbol, the network function
  `headOf` of the arguments.
-/
import proofs.«149232_j77773267796720_1_alg».proof.Proof.RefRun
import proofs.«149232_j77773267796720_1_alg».proof.Proof.Chain

set_option maxRecDepth 16384

noncomputable section

open Idealize.ShloMosaic Idealize.ShloMosaic.TcCoe Idealize.SL.Sem

namespace Cert.ReferenceIdeal.Same

open Cert.ReferenceIdeal Cert.ReferenceIdeal.ValueP

/-- The first layer's dot_general is the plain product … -/
theorem dot128 (a : FVec Ideal S50000x128 .f32) (w : FVec Ideal S128x128 .f32) :
    Host.dotGeneral dot_S50000x128_S128x128_S50000x128_1_0_0_1_n_n none a w = GraphConv.prod (M := 50000) (K := 128) (N := 128) a w :=
  GraphConv.dotGeneral_eq _ rfl none .single a w

/-- … and so is each head's. -/
theorem dot64 (a : FVec Ideal S50000x128 .f32) (w : FVec Ideal S128x64 .f32) :
    Host.dotGeneral dot_S50000x128_S128x64_S50000x64_1_0_0_1_n_n none a w = GraphConv.prod (M := 50000) (K := 128) (N := 64) a w :=
  GraphConv.dotGeneral_eq _ rfl none .single a w

variable (m : (ℓ : Loc nD τ sig) → Buf (Elt Ideal) ℓ) (c : Dev nD)

/-- The reference's first result is the head with W_mu, b_mu. -/
theorem first_result : res_main_v77 (F := Ideal) m c
    = Cert.KernelIdeal.Chain.headOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold res_main_v77
  simp only [dot128, dot64]
  rfl

/-- The reference's second result is the head with W_logstd, b_logstd. -/
theorem second_result : res_main_v94 (F := Ideal) m c
    = Cert.KernelIdeal.Chain.headOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) := by
  unfold res_main_v94
  simp only [dot128, dot64]
  rfl

end Cert.ReferenceIdeal.Same

end
-- ==== Proof.lean ====
/-
  The certificate of a two-layer graph-convolution encoder: the kernel program against its reference.

  Both programs compute, from node features x [50000, 128], an edge list [2, 800000] and three weight/bias pairs,
      hidden = max(Â (x · W1) + b1, 0),   mean = Â (hidden · W_mu) + b_mu,   logstd = Â (hidden · W_logstd) + b_logstd,
  where Â is the graph aggregation with self loops and symmetric degree weights: gather rows at the edges' sources,
  scale each by invSqrtDeg(source) · invSqrtDeg(target), add them up at the edges' targets. They run the aggregation
  on the host in the same operations. They differ only in the three dense products: the reference calls the host's
  dot_general; the kernel program launches a kernel that walks the 50000 rows in ten blocks of 5000, rounds each block
  and the weights to bf16 and multiplies them into a zero accumulator. On the extended reals a change of float
  format is the identity and both products are the same finite sum over the contracted index, entry by entry, so
  each launch leaves exactly the reference's product (Proof/Region0–2, over Proof/PlainProduct), the values that
  flow between the launches are the reference's (Proof/Fold, over the host stretches read in Proof/Chain), and the
  reference's two composed result terms are the same functions of the arguments (Proof/RefValue). No law used
  needs an entry to be finite: the precondition is never opened.

  The word-level kernel's frame and the idealized kernel's frame are the generated frame certificates; the
  reference's frame is its run with the results dropped; the idealization rewrote no operation, so `preserves` is
  trivial.
-/
import proofs.«149232_j77773267796720_1_alg».proof.Defs
import proofs.«149232_j77773267796720_1_alg».proof.Proof.Gen.Kernel
import proofs.«149232_j77773267796720_1_alg».proof.Proof.Gen.Kernel.Skeleton
import proofs.«149232_j77773267796720_1_alg».proof.Proof.Gen.Kernel.Launch
import proofs.«149232_j77773267796720_1_alg».proof.Proof.Gen.Kernel.Points
import proofs.«149232_j77773267796720_1_alg».proof.Proof.Gen.Kernel.Frame
import proofs.«149232_j77773267796720_1_alg».proof.Proof.Gen.KernelIdeal
import proofs.«149232_j77773267796720_1_alg».proof.Proof.Gen.KernelIdeal.Skeleton
import proofs.«149232_j77773267796720_1_alg».proof.Proof.Gen.KernelIdeal.Launch
import proofs.«149232_j77773267796720_1_alg».proof.Proof.Gen.KernelIdeal.Points
import proofs.«149232_j77773267796720_1_alg».proof.Proof.Gen.KernelIdeal.Frame
import proofs.«149232_j77773267796720_1_alg».proof.Proof.Gen.ReferenceIdeal
import proofs.«149232_j77773267796720_1_alg».proof.Proof.Gen.Pre_finite_inputs
import proofs.«149232_j77773267796720_1_alg».proof.Proof.KernelRun
import proofs.«149232_j77773267796720_1_alg».proof.Proof.Fold
import proofs.«149232_j77773267796720_1_alg».proof.Proof.RefRun
import proofs.«149232_j77773267796720_1_alg».proof.Proof.RefValue
import Idealize.ShloMosaic.Adequacy
import Idealize.ShloMosaic.Init

noncomputable section

namespace Cert.Proof

open Idealize.ShloMosaic Idealize.SL.Sem

/-- The word-level kernel program runs and keeps its arguments: the generated frame certificate. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run, the two results dropped. -/
theorem frame_referenceIdeal : Cert.frame_ReferenceIdeal := fun m ρ _ =>
  (θ_run Cert.ReferenceIdeal.defs _ _).mono (fun _ h c => (h c).2.2) (Cert.ReferenceIdeal.ValueP.run (F := Ideal) m ρ)

/-- The idealization rewrote nothing. -/
theorem preserves : Cert.preserves_Kernel_KernelIdeal := trivial

/-- From memories that agree on the arguments both programs end with `mean` and `logstd` of those arguments. -/
theorem algebraic : Cert.algebraic_KernelIdeal_ReferenceIdeal := by
  intro m ρ m' ρ' _ hagree
  refine ⟨fun c => Cert.KernelIdeal.Fold.mean m c, fun c => Cert.KernelIdeal.Fold.logstd m c, ?_, ?_⟩
  · -- the kernel program: every buffer at the last boundary's contents, read at the two results and the arguments
    exact (θ_run Cert.KernelIdeal.defs _ _).mono (fun r h c =>
      ⟨(h c _ (Cert.KernelIdeal.Gen.mem_uc Cert.KernelIdeal.main_v66 (by decide))).trans (Cert.KernelIdeal.Fold.mean_at_end m ρ c),
        (h c _ (Cert.KernelIdeal.Gen.mem_uc Cert.KernelIdeal.main_v83 (by decide))).trans (Cert.KernelIdeal.Fold.logstd_at_end m ρ c),
        (h c _ (Cert.KernelIdeal.Gen.mem_uc Cert.KernelIdeal.main_arg0 (by decide))).trans (Cert.KernelIdeal.Gen.W10_main_arg0 m ρ c),
        (h c _ (Cert.KernelIdeal.Gen.mem_uc Cert.KernelIdeal.main_arg1 (by decide))).trans (Cert.KernelIdeal.Gen.W10_main_arg1 m ρ c),
        (h c _ (Cert.KernelIdeal.Gen.mem_uc Cert.KernelIdeal.main_arg2 (by decide))).trans (Cert.KernelIdeal.Gen.W10_main_arg2 m ρ c),
        (h c _ (Cert.KernelIdeal.Gen.mem_uc Cert.KernelIdeal.main_arg3 (by decide))).trans (Cert.KernelIdeal.Gen.W10_main_arg3 m ρ c),
        (h c _ (Cert.KernelIdeal.Gen.mem_uc Cert.KernelIdeal.main_arg4 (by decide))).trans (Cert.KernelIdeal.Gen.W10_main_arg4 m ρ c),
        (h c _ (Cert.KernelIdeal.Gen.mem_uc Cert.KernelIdeal.main_arg5 (by decide))).trans (Cert.KernelIdeal.Gen.W10_main_arg5 m ρ c),
        (h c _ (Cert.KernelIdeal.Gen.mem_uc Cert.KernelIdeal.main_arg6 (by decide))).trans (Cert.KernelIdeal.Gen.W10_main_arg6 m ρ c),
        (h c _ (Cert.KernelIdeal.Gen.mem_uc Cert.KernelIdeal.main_arg7 (by decide))).trans (Cert.KernelIdeal.Gen.W10_main_arg7 m ρ c)⟩)
      (Cert.KernelIdeal.Run.ends_at_W10 (F := Ideal) m ρ)
  · -- the reference: its two composed terms are the same heads, of arguments that agree with the kernel program's
    refine (θ_run Cert.ReferenceIdeal.defs _ _).mono (fun r h c => ⟨(h c).1.trans ?_, (h c).2.1.trans ?_, (h c).2.2⟩)
      (Cert.ReferenceIdeal.ValueP.run (F := Ideal) m' ρ')
    · rw [Cert.ReferenceIdeal.Same.first_result, (hagree c).1, (hagree c).2.1, (hagree c).2.2.1, (hagree c).2.2.2.1,
        (hagree c).2.2.2.2.1, (hagree c).2.2.2.2.2.1]
      rfl
    · rw [Cert.ReferenceIdeal.Same.second_result, (hagree c).1, (hagree c).2.1, (hagree c).2.2.1, (hagree c).2.2.2.1,
        (hagree c).2.2.2.2.2.2.1, (hagree c).2.2.2.2.2.2.2]
      rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
